-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S8192 .f32) (main_arg5 : FVec F S8192x2048 .f32) (main_arg6 : FVec F S2048 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4x2048x2048 .f32) (main_arg1 : FVec F S2048x8192 .f32) (main_arg2 : FVec F S8192 .f32) (main_arg3 : FVec F S2048x8192 .f32) (main_arg4 : FVec F S8192 .f32) (main_arg5 : FVec F S8192x2048 .f32) (main_arg6 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S4x2048x2048 : Shape := ⟨3, ![4, 2048, 2048]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S1x8192 : Shape := ⟨2, ![1, 8192]⟩
abbrev S1x2048 : Shape := ⟨2, ![1, 2048]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 16
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192, .f32⟩
  | .hbm, ⟨3, _⟩ => ⟨S2048x8192, .f32⟩
  | .hbm, ⟨4, _⟩ => ⟨S8192, .f32⟩
  | .hbm, ⟨5, _⟩ => ⟨S8192x2048, .f32⟩
  | .hbm, ⟨6, _⟩ => ⟨S2048, .f32⟩
  | .hbm, ⟨7, _⟩ => ⟨S8192x2048, .f32⟩
  | .hbm, ⟨8, _⟩ => ⟨S2048x8192, .bf16⟩
  | .hbm, ⟨9, _⟩ => ⟨S2048x8192, .bf16⟩
  | .hbm, ⟨10, _⟩ => ⟨S8192x2048, .bf16⟩
  | .hbm, ⟨11, _⟩ => ⟨S1x8192, .f32⟩
  | .hbm, ⟨12, _⟩ => ⟨S1x8192, .f32⟩
  | .hbm, ⟨13, _⟩ => ⟨S1x2048, .f32⟩
  | .hbm, ⟨14, _⟩ => ⟨S8192x2048, .f32⟩
  | .hbm, ⟨15, _⟩ => ⟨S4x2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S1024x2048, .bf16⟩
  | .local _ .vmem, ⟨11, _⟩ => ⟨S1024x2048, .bf16⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

class Facts₀ : Prop where
  shapeCasts_S4x2048x2048_S8192x2048 : S4x2048x2048.ShapeCasts S8192x2048
  bitsLt_bf16_f32 : FTy.bits .bf16 < FTy.bits .f32
  shapeCasts_S8192_S1x8192 : S8192.ShapeCasts S1x8192
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x2048_S4x2048x2048 : S8192x2048.ShapeCasts S4x2048x2048
  dot_S1024x2048_S2048x1024_S1024x1024_1_0_0_1_n_n_wf : DotDims.WF S1024x2048 S2048x1024 S1024x1024 [1] [0] [0] [1] [] []
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .f32 = 32 ∨ (Rect.block (s := S8192x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x8192.size a
  hwx0_1 : ∀ i : grid0.Coords, EltTy.bits .bf16 = 32 ∨ (Rect.block (s := S2048x8192) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x8192.size a
  hwx0_3 : ∀ i : grid0.Coords, EltTy.bits .bf16 = 32 ∨ (Rect.block (s := S2048x8192) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S8192x2048.size a
  hwx0_5 : ∀ i : grid0.Coords, EltTy.bits .bf16 = 32 ∨ (Rect.block (s := S8192x2048) S1024x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S8192x2048.size a
  hwx0_7 : ∀ i : grid0.Coords, EltTy.bits .f32 = 32 ∨ (Rect.block (s := S8192x2048) S1024x2048.size (cc0_transform_7 i) (hinb0_7 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x2048.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x8192 : Shape := ⟨2, ![2048, 8192]⟩
abbrev S8192 : Shape := ⟨1, ![8192]⟩
abbrev S8192x2048 : Shape := ⟨2, ![8192, 2048]⟩
abbrev S2048 : Shape := ⟨1, ![2048]⟩
abbrev S4x2048x8192 : Shape := ⟨3, ![4, 2048, 8192]⟩
abbrev S1x1x8192 : Shape := ⟨3, ![1, 1, 8192]⟩
abbrev S_ : Shape := ⟨0, ![]⟩
abbrev S1x1x2048 : Shape := ⟨3, ![1, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x8192, .f32⟩
  | .hbm, ⟨2, _⟩ => ⟨S8192, .f32⟩
  | .hbm, ⟨3, _⟩ => ⟨S2048x8192, .f32⟩
  | .hbm, ⟨4, _⟩ => ⟨S8192, .f32⟩
  | .hbm, ⟨5, _⟩ => ⟨S8192x2048, .f32⟩
  | .hbm, ⟨6, _⟩ => ⟨S2048, .f32⟩
  | .hbm, ⟨7, _⟩ => ⟨S4x2048x8192, .f32⟩
  | .hbm, ⟨8, _⟩ => ⟨S1x1x8192, .f32⟩
  | .hbm, ⟨9, _⟩ => ⟨S4x2048x8192, .f32⟩
  | .hbm, ⟨10, _⟩ => ⟨S4x2048x8192, .f32⟩
  | .hbm, ⟨11, _⟩ => ⟨S_, .f32⟩
  | .hbm, ⟨12, _⟩ => ⟨S4x2048x8192, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S1x1x8192, .f32⟩
  | .hbm, ⟨17, _⟩ => ⟨S4x2048x8192, .f32⟩
  | .hbm, ⟨18, _⟩ => ⟨S4x2048x8192, .f32⟩
  | .hbm, ⟨19, _⟩ => ⟨S4x2048x8192, .f32⟩
  | .hbm, ⟨20, _⟩ => ⟨S4x2048x2048, .f32⟩
  | .hbm, ⟨21, _⟩ => ⟨S1x1x2048, .f32⟩
  | .hbm, ⟨22, _⟩ => ⟨S4x2048x2048, .f32⟩
  | .hbm, ⟨23, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  bcast_S_S4x2048x8192 : S_.BroadcastsInDim S4x2048x8192 (![] : Fin 0 → Fin S4x2048x8192.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x2048_S2048x8192_S4x2048x8192_2_0_01_1_n_n_wf : DotDims.WF S4x2048x2048 S2048x8192 S4x2048x8192 [2] [0] [0, 1] [1] [] []
  dot_S4x2048x8192_S8192x2048_S4x2048x2048_2_0_01_1_n_n_wf : DotDims.WF S4x2048x8192 S8192x2048 S4x2048x2048 [2] [0] [0, 1] [1] [] []

variable [Facts₀]

def dot_S4x2048x2048_S2048x8192_S4x2048x8192_2_0_01_1_n_n : DotDims S4x2048x2048 S2048x8192 S4x2048x8192 where
  lhsContracting := [2]
  rhsContracting := [0]
  lhsNonContracting := [0, 1]
  rhsNonContracting := [1]
  lhsBatch := []
  rhsBatch := []
  wf := dot_S4x2048x2048_S2048x8192_S4x2048x8192_2_0_01_1_n_n_wf
def dot_S4x2048x8192_S8192x2048_S4x2048x2048_2_0_01_1_n_n : DotDims S4x2048x8192 S8192x2048 S4x2048x2048 where
  lhsContracting := [2]
  rhsContracting := [0]
  lhsNonContracting := [0, 1]
  rhsNonContracting := [1]
  lhsBatch := []
  rhsBatch := []
  wf := dot_S4x2048x8192_S8192x2048_S4x2048x2048_2_0_01_1_n_n_wf

class Facts : Prop extends Facts₀ where

variable [Facts]
-- ==== Proof.LibReadBack.lean ====
/-
  Reading a buffer back after stores that covered it. A list of stores is kept last first; when the LAST store wrote
  the whole buffer (the rectangle of the buffer's own extents at zero offsets), a load of the whole buffer reads that
  store's payload, whatever the earlier stores were: every index lies in the last store's rectangle, so the earlier
  ones are shadowed everywhere. This is the accumulator pattern "zero the buffer, add into it, read it again".
-/
import Idealize.ShloMosaic.Lib.Pipeline.Value

noncomputable section

namespace Idealize.ShloMosaic.View

variable {Val : EltTy → Type} {S : Shape} {e : EltTy}

/-- A load of the whole buffer after a list of stores whose last one wrote the whole buffer reads that store's
    payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.CaseValues.lean ====
/-
  What one run of the kernel body leaves behind, as values.

  The body keeps a running sum in a scratch buffer. On the first step of a row tile it stores zeros into the scratch;
  on every step it then stores  scratch + (this step's partial product)  back into the scratch, and finally stores
  scratch + bias  into the output block. So, writing  step(acc)  for the accumulation of one step's partial product
  onto  acc  and  emit(acc)  for  acc + bias:

    first step of a tile:   scratch := step(0),            output block := emit(step(0))
    any later step:         scratch := step(scratch_old),  output block := emit(step(scratch_old)).

  Each statement below reads the stores of one case back: a buffer stored whole holds the stored value, and a load
  that follows a whole store reads what was stored. They hold for every interpretation of the float operations.
-/
import proofs.«178349_j19653770346748_2_alg».proof.Proof.Gen.KernelIdeal.Frame
import proofs.«178349_j19653770346748_2_alg».proof.Proof.LibReadBack
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- Zero offsets on both axes, however they are spelt. -/
theorem hz : (![0, 0] : Fin 2 → Nat) = fun _ => 0 := funext fun a => by fin_cases a <;> rfl

/-- A later step: the scratch, which held `xs0`, ends at the accumulation of this step's partial product onto `xs0`. -/
theorem scratch_later (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (hc0 : ¬cond0_0 i)
    (x0 : Vec F S1024x2048 .f32) (x1 : Vec F S2048x1024 .bf16) (x2 : Vec F S1x1024 .f32) (x3 : Vec F S2048x1024 .bf16) (x4 : Vec F S1x1024 .f32) (x5 : Vec F S1024x2048 .bf16) (x6 : Vec F S1x2048 .f32) (xs0 : Vec F S1024x2048 .f32) :
    sout0_B_0 c i arg2 harg2 arg3 harg3 arg4 harg4 arg5 harg5 arg6 harg6 arg7 harg7 arg8 harg8 arg9 harg9 arg10 harg10 hc0 x0 x1 x2 x3 x4 x5 x6 xs0 = k0_pay3 x0 x1 x2 x3 x4 xs0 x5 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero (S := S1024x2048) hz]
  simp only [View.readAt_eq_ld, harg2.read_unread, harg3.read_unread, harg4.read_unread, harg5.read_unread,
    harg6.read_unread, harg7.read_unread, harg10.read_unread,
    View.ld_unit_zero (S := S1024x2048) hz, View.ld_unit_zero (S := S2048x1024) hz, View.ld_unit_zero (S := S1x1024) hz]

/-- A later step: the output block ends at the new scratch plus the bias row. -/
theorem block_later (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (hc0 : ¬cond0_0 i)
    (x0 : Vec F S1024x2048 .f32) (x1 : Vec F S2048x1024 .bf16) (x2 : Vec F S1x1024 .f32) (x3 : Vec F S2048x1024 .bf16) (x4 : Vec F S1x1024 .f32) (x5 : Vec F S1024x2048 .bf16) (x6 : Vec F S1x2048 .f32) (xs0 : Vec F S1024x2048 .f32) :
    out0_B_7 c i arg2 harg2 arg3 harg3 arg4 harg4 arg5 harg5 arg6 harg6 arg7 harg7 arg8 harg8 arg9 harg9 arg10 harg10 hc0 x0 x1 x2 x3 x4 x5 x6 xs0 = k0_pay1 (k0_pay3 x0 x1 x2 x3 x4 xs0 x5) x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero (S := S1024x2048) hz, View.readCov_unit_zero (S := S1024x2048) _ hz]
  simp only [View.readAt_eq_ld, harg2.read_unread, harg3.read_unread, harg4.read_unread, harg5.read_unread,
    harg6.read_unread, harg7.read_unread, harg8.read_unread, harg10.read_unread,
    View.ld_unit_zero (S := S1024x2048) hz, View.ld_unit_zero (S := S2048x1024) hz, View.ld_unit_zero (S := S1x1024) hz,
    View.ld_unit_zero (S := S1x2048) hz]

/-- The first step of a tile: the scratch is zeroed, read back, and ends at this step's partial product accumulated
    onto the zero block. -/
theorem scratch_first (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (hc0 : cond0_0 i)
    (x0 : Vec F S1024x2048 .f32) (x1 : Vec F S2048x1024 .bf16) (x2 : Vec F S1x1024 .f32) (x3 : Vec F S2048x1024 .bf16) (x4 : Vec F S1x1024 .f32) (x5 : Vec F S1024x2048 .bf16) (x6 : Vec F S1x2048 .f32) :
    sout0_A_0 c i arg2 harg2 arg3 harg3 arg4 harg4 arg5 harg5 arg6 harg6 arg7 harg7 arg8 harg8 arg9 harg9 arg10 harg10 hc0 x0 x1 x2 x3 x4 x5 x6 = k0_pay3 x0 x1 x2 x3 x4 k0_pay2 x5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_cons_unit_zero (S := S1024x2048) hz, View.readCov_unit_zero (S := S1024x2048) _ hz]
  simp only [View.readAt_eq_ld, harg2.read_unread, harg3.read_unread, harg4.read_unread, harg5.read_unread,
    harg6.read_unread, harg7.read_unread,
    View.ld_unit_zero (S := S1024x2048) hz, View.ld_unit_zero (S := S2048x1024) hz, View.ld_unit_zero (S := S1x1024) hz]

/-- The first step of a tile: the output block ends at the new scratch plus the bias row. -/
theorem block_first (c : Dev nD) (i : grid0.Coords) (arg2 : Memref sig .tc .vmem S1024x2048 .f32) (harg2 : arg2.IsWhole) (arg3 : Memref sig .tc .vmem S2048x1024 .bf16) (harg3 : arg3.IsWhole) (arg4 : Memref sig .tc .vmem S1x1024 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x2048 .bf16) (harg7 : arg7.IsWhole) (arg8 : Memref sig .tc .vmem S1x2048 .f32) (harg8 : arg8.IsWhole) (arg9 : Memref sig .tc .vmem S1024x2048 .f32) (harg9 : arg9.IsWhole) (arg10 : Memref sig .tc .vmem S1024x2048 .f32) (harg10 : arg10.IsWhole) (hc0 : cond0_0 i)
    (x0 : Vec F S1024x2048 .f32) (x1 : Vec F S2048x1024 .bf16) (x2 : Vec F S1x1024 .f32) (x3 : Vec F S2048x1024 .bf16) (x4 : Vec F S1x1024 .f32) (x5 : Vec F S1024x2048 .bf16) (x6 : Vec F S1x2048 .f32) :
    out0_A_7 c i arg2 harg2 arg3 harg3 arg4 harg4 arg5 harg5 arg6 harg6 arg7 harg7 arg8 harg8 arg9 harg9 arg10 harg10 hc0 x0 x1 x2 x3 x4 x5 x6 = k0_pay1 (k0_pay3 x0 x1 x2 x3 x4 k0_pay2 x5) x6 := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero (S := S1024x2048) hz, View.readCov_cons_unit_zero (S := S1024x2048) _ hz,
    View.readCov_unit_zero (S := S1024x2048) _ hz]
  simp only [View.readAt_eq_ld, harg2.read_unread, harg3.read_unread, harg4.read_unread, harg5.read_unread,
    harg6.read_unread, harg7.read_unread, harg8.read_unread,
    View.ld_unit_zero (S := S1024x2048) hz, View.ld_unit_zero (S := S2048x1024) hz, View.ld_unit_zero (S := S1x1024) hz,
    View.ld_unit_zero (S := S1x2048) hz]

end Cert.KernelIdeal.Body

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.LibPrefixSums.lean ====
/-
  Sums of an initial stretch of finitely many terms. For terms f 0, …, f (N−1) of a commutative additive monoid,
  upto f a  is the sum of the terms whose index is at most a — written as a sum over all indices with the later terms
  replaced by zero, so that no index arithmetic on the index type is needed. It starts at the first term, grows by one
  term at a time, and is the whole sum once a reaches N − 1. Nothing but commutative addition is used, so the statements
  hold on the extended reals without any finiteness.
-/
import Mathlib

noncomputable section

namespace PrefixSums

open Finset

variable {M : Type*} [AddCommMonoid M] {N : ℕ}

/-- The sum of the terms of index at most `a`. -/
def upto (f : Fin N → M) (a : ℕ) : M := ∑ j : Fin N, if j.val ≤ a then f j else 0

/-- One term alone, as a sum over all indices. -/
theorem single (f : Fin N → M) (b : ℕ) (hb : b < N) : (∑ j : Fin N, if j.val = b then f j else 0) = f ⟨b, hb⟩ := by
  rw [Finset.sum_eq_single (⟨b, hb⟩ : Fin N)]
  · exact if_pos rfl
  · intro j _ hj
    exact if_neg fun h => hj (Fin.ext h)
  · intro h; exact absurd (Finset.mem_univ _) h

/-- Up to index 0 there is the first term only. -/
theorem upto_zero (f : Fin N → M) (hN : 0 < N) : upto f 0 = f ⟨0, hN⟩ := by
  unfold upto
  rw [← single f 0 hN]
  refine Finset.sum_congr rfl fun j _ => ?_
  by_cases h : j.val = 0
  · rw [if_pos (by omega), if_pos h]
  · rw [if_neg (by omega), if_neg h]

/-- One more term. -/
theorem upto_succ (f : Fin N → M) (a : ℕ) (h : a + 1 < N) : upto f (a + 1) = upto f a + f ⟨a + 1, h⟩ := by
  unfold upto
  rw [← single f (a + 1) h, ← Finset.sum_add_distrib]
  refine Finset.sum_congr rfl fun j _ => ?_
  by_cases h1 : j.val ≤ a
  · rw [if_pos (by omega), if_pos h1, if_neg (by omega), add_zero]
  · by_cases h2 : j.val = a + 1
    · rw [if_pos (by omega), if_neg h1, if_pos h2, zero_add]
    · rw [if_neg (by omega), if_neg h1, if_neg h2, add_zero]

/-- From the last index on it is the whole sum. -/
theorem upto_all (f : Fin N → M) (a : ℕ) (h : N ≤ a + 1) : upto f a = ∑ j, f j := by
  unfold upto
  exact Finset.sum_congr rfl fun j _ => if_pos (by have := j.isLt; omega)

end PrefixSums

end
-- ==== Proof.Spec.lean ====
/-
  The function both programs compute, and the one regrouping that separates them.

  A gated two-layer perceptron. For a row x of the input (K entries), hidden unit I has
      gate  g = ⟨x, Wg·I⟩ + bg_I,     up  u = ⟨x, Wu·I⟩ + bu_I,     hidden  h_I = g · max(g, 0) · u,
  and output column c is
      out_c = Σ_I h_I · Wd_{I,c} + bd_c .
  All arithmetic is on the extended reals; the zero the activation clamps at is kept as the float word it is printed
  as (the same word on both sides, never evaluated).

  The reference takes the sum over all N = 8192 hidden units at once. The kernel takes it in 8 consecutive tiles of
  1024 hidden units, adding one tile's share at a time onto a running total that starts at zero. A sum over 8·1024
  indices is the sum over the 8 tiles of the sums inside each tile; this uses commutativity and associativity of
  addition only, so it holds on the extended reals with no finiteness assumption.

  Biases are rows: a [1, N] array read at (0, I).
-/
import Idealize.ShloMosaic.PureOps.Ideal
import Idealize.ShloMosaic.Lib.ValueIdx
import proofs.«178349_j19653770346748_2_alg».proof.Proof.LibBlockSums
import proofs.«178349_j19653770346748_2_alg».proof.Proof.LibPrefixSums

noncomputable section

namespace Cert.GatedMlp

open Idealize.ShloMosaic Idealize.ShloMosaic.ValueIdx

/-- Hidden unit `I` of row `R`:  g · max(g, 0) · u  with  g = ⟨X_R, Wg·I⟩ + bg_I  and  u = ⟨X_R, Wu·I⟩ + bu_I. -/
def hidden {M K N : ℕ} (X : (⟨2, ![M, K]⟩ : Shape).Idx → EReal) (Wg : (⟨2, ![K, N]⟩ : Shape).Idx → EReal)
    (Bg : (⟨2, ![1, N]⟩ : Shape).Idx → EReal) (Wu : (⟨2, ![K, N]⟩ : Shape).Idx → EReal)
    (Bu : (⟨2, ![1, N]⟩ : Shape).Idx → EReal) (R : Fin M) (I : Fin N) : EReal :=
  (((∑ k : Fin K, X (ix2 R k) * Wg (ix2 k I)) + Bg (ix2 (0 : Fin 1) I))
      * max ((∑ k : Fin K, X (ix2 R k) * Wg (ix2 k I)) + Bg (ix2 (0 : Fin 1) I)) (Ideal.ofBits .f32 0x00000000#32))
    * ((∑ k : Fin K, X (ix2 R k) * Wu (ix2 k I)) + Bu (ix2 (0 : Fin 1) I))

/-- The down projection of row `R` at column `c` over ALL the hidden units the arrays hold:  Σ_I h_I · Wd_{I,c}. -/
def down {M K N H : ℕ} (X : (⟨2, ![M, K]⟩ : Shape).Idx → EReal) (Wg : (⟨2, ![K, N]⟩ : Shape).Idx → EReal)
    (Bg : (⟨2, ![1, N]⟩ : Shape).Idx → EReal) (Wu : (⟨2, ![K, N]⟩ : Shape).Idx → EReal)
    (Bu : (⟨2, ![1, N]⟩ : Shape).Idx → EReal) (Wd : (⟨2, ![N, H]⟩ : Shape).Idx → EReal) (R : Fin M) (c : Fin H) : EReal :=
  ∑ I : Fin N, hidden X Wg Bg Wu Bu R I * Wd (ix2 I c)

/-- Entry `i` of tile `j`, of 8 tiles of 1024: index 1024·j + i. Rows and hidden units are both tiled this way. -/
def tile (j : Fin 8) (i : Fin 1024) : Fin 8192 := ⟨j.val * 1024 + i.val, by have := j.isLt; have := i.isLt; omega⟩

theorem tile_val (j : Fin 8) (i : Fin 1024) : (tile j i).val = j.val * 1024 + i.val := rfl

/-- Tile `j`'s share of the down projection of row `R` at column `c`. -/
def share (X : (⟨2, ![8192, 2048]⟩ : Shape).Idx → EReal) (Wg : (⟨2, ![2048, 8192]⟩ : Shape).Idx → EReal)
    (Bg : (⟨2, ![1, 8192]⟩ : Shape).Idx → EReal) (Wu : (⟨2, ![2048, 8192]⟩ : Shape).Idx → EReal)
    (Bu : (⟨2, ![1, 8192]⟩ : Shape).Idx → EReal) (Wd : (⟨2, ![8192, 2048]⟩ : Shape).Idx → EReal)
    (R : Fin 8192) (c : Fin 2048) (j : Fin 8) : EReal :=
  ∑ i : Fin 1024, hidden X Wg Bg Wu Bu R (tile j i) * Wd (ix2 (tile j i) c)

/-- The down projection is the sum of the 8 tiles' shares. -/
theorem down_eq_shares (X : (⟨2, ![8192, 2048]⟩ : Shape).Idx → EReal) (Wg : (⟨2, ![2048, 8192]⟩ : Shape).Idx → EReal)
    (Bg : (⟨2, ![1, 8192]⟩ : Shape).Idx → EReal) (Wu : (⟨2, ![2048, 8192]⟩ : Shape).Idx → EReal)
    (Bu : (⟨2, ![1, 8192]⟩ : Shape).Idx → EReal) (Wd : (⟨2, ![8192, 2048]⟩ : Shape).Idx → EReal)
    (R : Fin 8192) (c : Fin 2048) :
    down X Wg Bg Wu Bu Wd R c = ∑ j : Fin 8, share X Wg Bg Wu Bu Wd R c j :=
  BlockSums.sum_blocks (m := 8) (n := 1024) rfl tile tile_val _

/-- A block computation is a share: when the six block arrays are the restrictions of the whole arrays to row tile
    `a` and hidden tile `j`, the down projection over the block's 1024 hidden units is tile `j`'s share at the
    corresponding row. -/
theorem down_block (X : (⟨2, ![8192, 2048]⟩ : Shape).Idx → EReal) (Wg : (⟨2, ![2048, 8192]⟩ : Shape).Idx → EReal)
    (Bg : (⟨2, ![1, 8192]⟩ : Shape).Idx → EReal) (Wu : (⟨2, ![2048, 8192]⟩ : Shape).Idx → EReal)
    (Bu : (⟨2, ![1, 8192]⟩ : Shape).Idx → EReal) (Wd : (⟨2, ![8192, 2048]⟩ : Shape).Idx → EReal)
    (x0 : (⟨2, ![1024, 2048]⟩ : Shape).Idx → EReal) (x1 : (⟨2, ![2048, 1024]⟩ : Shape).Idx → EReal)
    (x2 : (⟨2, ![1, 1024]⟩ : Shape).Idx → EReal) (x3 : (⟨2, ![2048, 1024]⟩ : Shape).Idx → EReal)
    (x4 : (⟨2, ![1, 1024]⟩ : Shape).Idx → EReal) (x5 : (⟨2, ![1024, 2048]⟩ : Shape).Idx → EReal) (a j : Fin 8)
    (h0 : ∀ r k, x0 (ix2 r k) = X (ix2 (tile a r) k)) (h1 : ∀ k i, x1 (ix2 k i) = Wg (ix2 k (tile j i)))
    (h2 : ∀ i, x2 (ix2 (0 : Fin 1) i) = Bg (ix2 (0 : Fin 1) (tile j i)))
    (h3 : ∀ k i, x3 (ix2 k i) = Wu (ix2 k (tile j i)))
    (h4 : ∀ i, x4 (ix2 (0 : Fin 1) i) = Bu (ix2 (0 : Fin 1) (tile j i)))
    (h5 : ∀ i c, x5 (ix2 i c) = Wd (ix2 (tile j i) c)) (r : Fin 1024) (c : Fin 2048) :
    down x0 x1 x2 x3 x4 x5 r c = share X Wg Bg Wu Bu Wd (tile a r) c j := by
  unfold down share hidden
  simp only [h0, h1, h2, h3, h4, h5]

/-- The running total of row `R` at column `c` after the tiles 0, …, n: the sum of their shares. -/
def running (X : (⟨2, ![8192, 2048]⟩ : Shape).Idx → EReal) (Wg : (⟨2, ![2048, 8192]⟩ : Shape).Idx → EReal)
    (Bg : (⟨2, ![1, 8192]⟩ : Shape).Idx → EReal) (Wu : (⟨2, ![2048, 8192]⟩ : Shape).Idx → EReal)
    (Bu : (⟨2, ![1, 8192]⟩ : Shape).Idx → EReal) (Wd : (⟨2, ![8192, 2048]⟩ : Shape).Idx → EReal)
    (R : Fin 8192) (c : Fin 2048) (n : ℕ) : EReal :=
  PrefixSums.upto (share X Wg Bg Wu Bu Wd R c) n

/-- After the last tile the running total is the whole down projection. -/
theorem running_last (X : (⟨2, ![8192, 2048]⟩ : Shape).Idx → EReal) (Wg : (⟨2, ![2048, 8192]⟩ : Shape).Idx → EReal)
    (Bg : (⟨2, ![1, 8192]⟩ : Shape).Idx → EReal) (Wu : (⟨2, ![2048, 8192]⟩ : Shape).Idx → EReal)
    (Bu : (⟨2, ![1, 8192]⟩ : Shape).Idx → EReal) (Wd : (⟨2, ![8192, 2048]⟩ : Shape).Idx → EReal)
    (R : Fin 8192) (c : Fin 2048) :
    running X Wg Bg Wu Bu Wd R c 7 = down X Wg Bg Wu Bu Wd R c := by
  unfold running
  rw [PrefixSums.upto_all _ 7 (by omega), down_eq_shares]

/-- The whole result of row `R` at column `c`: the down projection plus the output bias. -/
def result (X : (⟨2, ![8192, 2048]⟩ : Shape).Idx → EReal) (Wg : (⟨2, ![2048, 8192]⟩ : Shape).Idx → EReal)
    (Bg : (⟨2, ![1, 8192]⟩ : Shape).Idx → EReal) (Wu : (⟨2, ![2048, 8192]⟩ : Shape).Idx → EReal)
    (Bu : (⟨2, ![1, 8192]⟩ : Shape).Idx → EReal) (Wd : (⟨2, ![8192, 2048]⟩ : Shape).Idx → EReal)
    (Bd : (⟨2, ![1, 2048]⟩ : Shape).Idx → EReal) (i : (⟨2, ![8192, 2048]⟩ : Shape).Idx) : EReal :=
  down X Wg Bg Wu Bu Wd (i 0) (i 1) + Bd (ix2 (0 : Fin 1) (i 1))

end Cert.GatedMlp

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.StepValue.lean ====
/-
  One step of the kernel body, read at an entry, on the extended reals.

  The step's three stored values are pure functions of the loaded blocks:
    • the zero fill: 0 at every entry;
    • the accumulation: at (r, c) the old scratch entry plus  Σ_i h(r, i) · wd(i, c)  over the block's 1024 hidden
      units, h(r, i) = g · max(g, 0) · u  with the gate and up values  g = ⟨x_r, wg·i⟩ + bg_i,  u = ⟨x_r, wu·i⟩ + bu_i
      — both matrix products of the step accumulate into zero, so each is a plain sum of products, and a change of
      float format is the identity on the extended reals;
    • the emitted block: the scratch entry plus the output bias of its column.
-/
import proofs.«178349_j19653770346748_2_alg».proof.Proof.Gen.KernelIdeal.Skeleton
import proofs.«178349_j19653770346748_2_alg».proof.Proof.Spec
import proofs.«178349_j19653770346748_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Step

open Cert.KernelIdeal Cert.KernelIdeal.Gen Idealize.ShloMosaic Idealize.ShloMosaic.ValueIdx Cert.GatedMlp

/-- Both matrix products of the step are plain ones: rows × contraction by contraction × columns. -/
theorem gate_dims : dot_S1024x2048_S2048x1024_S1024x1024_1_0_0_1_n_n = DotDims.plain 1024 2048 1024 := rfl
theorem down_dims : dot_S1024x1024_S1024x2048_S1024x2048_1_0_0_1_n_n = DotDims.plain 1024 1024 2048 := rfl

/-- The zero fill is 0 everywhere. -/
theorem zero_apply (r : Fin 1024) (c : Fin 2048) : k0_pay2 (F := Ideal) (ix2 r c) = 0 := by
  unfold k0_pay2
  simp only [shapeCast_self]
  rw [broadcast_apply]
  exact Ideal.ofBits_zero_f32

/-- The accumulation at (r, c): the old entry plus the block's down projection of row r at column c. -/
theorem step_apply (x0 : Vec Ideal S1024x2048 .f32) (x1 : Vec Ideal S2048x1024 .bf16) (x2 : Vec Ideal S1x1024 .f32)
    (x3 : Vec Ideal S2048x1024 .bf16) (x4 : Vec Ideal S1x1024 .f32) (acc : Vec Ideal S1024x2048 .f32)
    (x5 : Vec Ideal S1024x2048 .bf16) (r : Fin 1024) (c : Fin 2048) :
    k0_pay3 (F := Ideal) x0 x1 x2 x3 x4 acc x5 (ix2 r c) = acc (ix2 r c) + down x0 x1 x2 x3 x4 x5 r c := by
  unfold k0_pay3
  simp only [shapeCast_self, gate_dims, down_dims]
  simp only [matmul]
  rw [addf_apply, PlainMatmul.apply_zero]
  unfold down
  refine congrArg (acc (ix2 r c) + ·) (Finset.sum_congr rfl fun i _ => ?_)
  refine congrArg (· * x5 (ix2 i c)) ?_
  rw [truncf_apply, mulf_apply, mulf_apply, maximumf_apply, addf_apply, addf_apply, broadcast_apply,
    PlainMatmul.apply_zero, PlainMatmul.apply_zero, broadcastTo_1b_ab_apply, broadcastTo_1b_ab_apply]
  rfl

/-- The emitted block at (r, c): the scratch entry plus the bias of column c. -/
theorem emit_apply (acc : Vec Ideal S1024x2048 .f32) (b : Vec Ideal S1x2048 .f32) (r : Fin 1024) (c : Fin 2048) :
    k0_pay1 (F := Ideal) acc b (ix2 r c) = acc (ix2 r c) + b (ix2 (0 : Fin 1) c) := by
  unfold k0_pay1
  simp only [shapeCast_self]
  rw [addf_apply, broadcastTo_1b_ab_apply]

end Cert.KernelIdeal.Step

end
-- ==== Proof.Blocks.lean ====
/-
  Each window's block at a grid point, as entries of the array the kernel was handed.

  The grid is 8 × 8 and is walked row-major: point t is row tile t / 8 and hidden tile t % 8. A block's entry sits in
  its array, on each axis, at (the block's index on that axis) × (the block's extent) + (the entry's coordinate):
    • the input rows and the output: rows 1024·(t / 8) + r, all 2048 columns;
    • the gate and up weights: all 2048 rows, columns 1024·(t % 8) + i; their biases: the one row, the same columns;
    • the down weight: rows 1024·(t % 8) + i, all 2048 columns;
    • the output bias: the whole row at every point.
  The index maps are decided once over the 64 points.
-/
import proofs.«178349_j19653770346748_2_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The input rows' block index: row tile t / 8, the one column block. -/
theorem idx_x : ∀ t : Fin cfg0.N, win0_0.index t 0 = t.val / 8 ∧ win0_0.index t 1 = 0 :=
  (by decide +kernel : ∀ t : Fin grid0.N, win0_0.index t 0 = t.val / 8 ∧ win0_0.index t 1 = 0)

/-- The input block at point t holds rows 1024·(t / 8) + r of the input. -/
theorem read_x (c : Dev nD) (t : Fin cfg0.N) (r : Fin 1024) (k : Fin 2048) (R : Fin 8192)
    (hR : R.val = t.val / 8 * 1024 + r.val) :
    (iblk m c 0 t : Vec F S1024x2048 .f32) (ix2 r k) = V m c main_v0 (ix2 R k) := by
  unfold iblk
  rw [View.read_apply]
  show V m c main_v0 _ = V m c main_v0 _
  congr 1
  funext ax
  apply Fin.ext
  match ax with
  | ⟨0, _⟩ => show win0_0.index t 0 * 1024 + 1 * r.val = R.val; rw [(idx_x t).1, hR]; omega
  | ⟨1, _⟩ => show win0_0.index t 1 * 2048 + 1 * k.val = k.val; rw [(idx_x t).2]; omega

/-- The gate weight's block index: the one row block, hidden tile t % 8. -/
theorem idx_wg : ∀ t : Fin cfg0.N, win0_1.index t 0 = 0 ∧ win0_1.index t 1 = t.val % 8 :=
  (by decide +kernel : ∀ t : Fin grid0.N, win0_1.index t 0 = 0 ∧ win0_1.index t 1 = t.val % 8)

/-- The gate weight block at point t holds columns 1024·(t % 8) + i of the gate weight. -/
theorem read_wg (c : Dev nD) (t : Fin cfg0.N) (k : Fin 2048) (i : Fin 1024) (I : Fin 8192)
    (hI : I.val = t.val % 8 * 1024 + i.val) :
    (iblk m c 1 t : Vec F S2048x1024 .bf16) (ix2 k i) = V m c main_v1 (ix2 k I) := by
  unfold iblk
  rw [View.read_apply]
  show V m c main_v1 _ = V m c main_v1 _
  congr 1
  funext ax
  apply Fin.ext
  match ax with
  | ⟨0, _⟩ => show win0_1.index t 0 * 2048 + 1 * k.val = k.val; rw [(idx_wg t).1]; omega
  | ⟨1, _⟩ => show win0_1.index t 1 * 1024 + 1 * i.val = I.val; rw [(idx_wg t).2, hI]; omega

/-- The gate bias's block index: hidden tile t % 8 of its one row. -/
theorem idx_bg : ∀ t : Fin cfg0.N, win0_2.index t 0 = 0 ∧ win0_2.index t 1 = t.val % 8 :=
  (by decide +kernel : ∀ t : Fin grid0.N, win0_2.index t 0 = 0 ∧ win0_2.index t 1 = t.val % 8)

/-- The gate bias block at point t holds entries 1024·(t % 8) + i of the gate bias row. -/
theorem read_bg (c : Dev nD) (t : Fin cfg0.N) (u : Fin 1) (i : Fin 1024) (I : Fin 8192)
    (hI : I.val = t.val % 8 * 1024 + i.val) :
    (iblk m c 2 t : Vec F S1x1024 .f32) (ix2 u i) = V m c main_v4 (ix2 u I) := by
  unfold iblk
  rw [View.read_apply]
  show V m c main_v4 _ = V m c main_v4 _
  congr 1
  funext ax
  apply Fin.ext
  match ax with
  | ⟨0, _⟩ => show win0_2.index t 0 * 1 + 1 * u.val = u.val; rw [(idx_bg t).1]; omega
  | ⟨1, _⟩ => show win0_2.index t 1 * 1024 + 1 * i.val = I.val; rw [(idx_bg t).2, hI]; omega

/-- The up weight's block index: the one row block, hidden tile t % 8. -/
theorem idx_wu : ∀ t : Fin cfg0.N, win0_3.index t 0 = 0 ∧ win0_3.index t 1 = t.val % 8 :=
  (by decide +kernel : ∀ t : Fin grid0.N, win0_3.index t 0 = 0 ∧ win0_3.index t 1 = t.val % 8)

/-- The up weight block at point t holds columns 1024·(t % 8) + i of the up weight. -/
theorem read_wu (c : Dev nD) (t : Fin cfg0.N) (k : Fin 2048) (i : Fin 1024) (I : Fin 8192)
    (hI : I.val = t.val % 8 * 1024 + i.val) :
    (iblk m c 3 t : Vec F S2048x1024 .bf16) (ix2 k i) = V m c main_v2 (ix2 k I) := by
  unfold iblk
  rw [View.read_apply]
  show V m c main_v2 _ = V m c main_v2 _
  congr 1
  funext ax
  apply Fin.ext
  match ax with
  | ⟨0, _⟩ => show win0_3.index t 0 * 2048 + 1 * k.val = k.val; rw [(idx_wu t).1]; omega
  | ⟨1, _⟩ => show win0_3.index t 1 * 1024 + 1 * i.val = I.val; rw [(idx_wu t).2, hI]; omega

/-- The up bias's block index: hidden tile t % 8 of its one row. -/
theorem idx_bu : ∀ t : Fin cfg0.N, win0_4.index t 0 = 0 ∧ win0_4.index t 1 = t.val % 8 :=
  (by decide +kernel : ∀ t : Fin grid0.N, win0_4.index t 0 = 0 ∧ win0_4.index t 1 = t.val % 8)

/-- The up bias block at point t holds entries 1024·(t % 8) + i of the up bias row. -/
theorem read_bu (c : Dev nD) (t : Fin cfg0.N) (u : Fin 1) (i : Fin 1024) (I : Fin 8192)
    (hI : I.val = t.val % 8 * 1024 + i.val) :
    (iblk m c 4 t : Vec F S1x1024 .f32) (ix2 u i) = V m c main_v5 (ix2 u I) := by
  unfold iblk
  rw [View.read_apply]
  show V m c main_v5 _ = V m c main_v5 _
  congr 1
  funext ax
  apply Fin.ext
  match ax with
  | ⟨0, _⟩ => show win0_4.index t 0 * 1 + 1 * u.val = u.val; rw [(idx_bu t).1]; omega
  | ⟨1, _⟩ => show win0_4.index t 1 * 1024 + 1 * i.val = I.val; rw [(idx_bu t).2, hI]; omega

/-- The down weight's block index: hidden tile t % 8, the one column block. -/
theorem idx_wd : ∀ t : Fin cfg0.N, win0_5.index t 0 = t.val % 8 ∧ win0_5.index t 1 = 0 :=
  (by decide +kernel : ∀ t : Fin grid0.N, win0_5.index t 0 = t.val % 8 ∧ win0_5.index t 1 = 0)

/-- The down weight block at point t holds rows 1024·(t % 8) + i of the down weight. -/
theorem read_wd (c : Dev nD) (t : Fin cfg0.N) (i : Fin 1024) (col : Fin 2048) (I : Fin 8192)
    (hI : I.val = t.val % 8 * 1024 + i.val) :
    (iblk m c 5 t : Vec F S1024x2048 .bf16) (ix2 i col) = V m c main_v3 (ix2 I col) := by
  unfold iblk
  rw [View.read_apply]
  show V m c main_v3 _ = V m c main_v3 _
  congr 1
  funext ax
  apply Fin.ext
  match ax with
  | ⟨0, _⟩ => show win0_5.index t 0 * 1024 + 1 * i.val = I.val; rw [(idx_wd t).1, hI]; omega
  | ⟨1, _⟩ => show win0_5.index t 1 * 2048 + 1 * col.val = col.val; rw [(idx_wd t).2]; omega

/-- The output bias's block index: always its whole row. -/
theorem idx_bd : ∀ t : Fin cfg0.N, win0_6.index t 0 = 0 ∧ win0_6.index t 1 = 0 :=
  (by decide +kernel : ∀ t : Fin grid0.N, win0_6.index t 0 = 0 ∧ win0_6.index t 1 = 0)

/-- The output bias block at every point is the whole output bias row. -/
theorem read_bd (c : Dev nD) (t : Fin cfg0.N) (u : Fin 1) (col : Fin 2048)
     :
    (iblk m c 6 t : Vec F S1x2048 .f32) (ix2 u col) = V m c main_v6 (ix2 u col) := by
  unfold iblk
  rw [View.read_apply]
  show V m c main_v6 _ = V m c main_v6 _
  congr 1
  funext ax
  apply Fin.ext
  match ax with
  | ⟨0, _⟩ => show win0_6.index t 0 * 1 + 1 * u.val = u.val; rw [(idx_bd t).1]; omega
  | ⟨1, _⟩ => show win0_6.index t 1 * 2048 + 1 * col.val = col.val; rw [(idx_bd t).2]; omega

/-- The output's block index: row tile t / 8, the one column block. -/
theorem idx_out : ∀ t : Fin cfg0.N, win0_7.index t 0 = t.val / 8 ∧ win0_7.index t 1 = 0 :=
  (by decide +kernel : ∀ t : Fin grid0.N, win0_7.index t 0 = t.val / 8 ∧ win0_7.index t 1 = 0)

end Cert.KernelIdeal.Blocks

end
-- ==== Proof.Sweep.lean ====
/-
  The sweep over the grid: what the scratch and the output block hold after each point.

  The 64 points are walked in order; point t works on row tile t / 8 and hidden tile t % 8. At the first point of a
  row tile (t % 8 = 0) the scratch is zeroed before the step; at every point the step adds hidden tile t % 8's share
  of the down projection onto the scratch, and the output block is set to the scratch plus the output bias. Hence,
  by induction on the point, after point t the scratch entry (r, c) is the running total of row 1024·(t / 8) + r at
  column c over the hidden tiles 0, …, t % 8 — starting from 0 + (tile 0's share) — and after the last point of a
  row tile (t % 8 = 7) the output block holds the whole result for its rows.
-/
import proofs.«178349_j19653770346748_2_alg».proof.Proof.Gen.KernelIdeal.Frame
import proofs.«178349_j19653770346748_2_alg».proof.Proof.CaseValues
import proofs.«178349_j19653770346748_2_alg».proof.Proof.StepValue
import proofs.«178349_j19653770346748_2_alg».proof.Proof.Blocks
import proofs.«178349_j19653770346748_2_alg».proof.Proof.Spec

noncomputable section

open Idealize.ShloMosaic Idealize.ShloMosaic.TcCoe Idealize.SL.Sem Idealize.ShloMosaic.ValueIdx

namespace Cert.KernelIdeal.Sweep

open Cert.KernelIdeal Cert.KernelIdeal.Gen Cert.GatedMlp

section AnyValues

variable {F : FTy → Type} [FloatOps F]
variable (m : (ℓ : Loc nD τ sig) → Buf (Elt F) ℓ)

/-- After the first point of a row tile: the step applied to the zero block, and its emitted block. -/
theorem first_at (c : Dev nD) (t : Fin cfg0.N) (h0 : t.val % 8 = 0) :
    outsAt0 m c t.val t.isLt
      = (k0_pay1 (k0_pay3 (iblk m c 0 t) (iblk m c 1 t) (iblk m c 2 t) (iblk m c 3 t) (iblk m c 4 t) k0_pay2 (iblk m c 5 t)) (iblk m c 6 t),
         k0_pay3 (iblk m c 0 t) (iblk m c 1 t) (iblk m c 2 t) (iblk m c 3 t) (iblk m c 4 t) k0_pay2 (iblk m c 5 t)) :=
  (outsAt0_A m c t h0).trans (congrArg₂ Prod.mk
    (Body.block_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t))
    (Body.scratch_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)))

/-- After any other point: the step applied to what the point before left in the scratch, and its emitted block. -/
theorem later_at (c : Dev nD) (t : Fin cfg0.N) (h0 : ¬t.val % 8 = 0) :
    outsAt0 m c t.val t.isLt
      = (k0_pay1 (k0_pay3 (iblk m c 0 t) (iblk m c 1 t) (iblk m c 2 t) (iblk m c 3 t) (iblk m c 4 t) (outsAt0 m c (t.val - 1) (Nat.lt_of_le_of_lt (Nat.sub_le _ _) t.isLt)).2 (iblk m c 5 t)) (iblk m c 6 t),
         k0_pay3 (iblk m c 0 t) (iblk m c 1 t) (iblk m c 2 t) (iblk m c 3 t) (iblk m c 4 t) (outsAt0 m c (t.val - 1) (Nat.lt_of_le_of_lt (Nat.sub_le _ _) t.isLt)).2 (iblk m c 5 t)) :=
  (outsAt0_B m c t h0).trans (congrArg₂ Prod.mk
    (Body.block_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2)
    (Body.scratch_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2))

/-- At every point the output block is the emit of that point's scratch. -/
theorem block_at (c : Dev nD) (t : Fin cfg0.N) :
    (outsAt0 m c t.val t.isLt).1 = k0_pay1 (outsAt0 m c t.val t.isLt).2 (iblk m c 6 t) := by
  by_cases h0 : t.val % 8 = 0
  · rw [first_at m c t h0]
  · rw [later_at m c t h0]

end AnyValues

section ExtendedReals

variable (m : (ℓ : Loc nD τ sig) → Buf (Elt Ideal) ℓ)

/-- The seven arrays the kernel is handed, as the region finds them: the input rows, the gate weight and bias row,
    the up weight and bias row, the down weight, the output bias row. -/
abbrev X (c : Dev nD) : (⟨2, ![8192, 2048]⟩ : Shape).Idx → EReal := V m c main_v0
abbrev Wg (c : Dev nD) : (⟨2, ![2048, 8192]⟩ : Shape).Idx → EReal := V m c main_v1
abbrev Bg (c : Dev nD) : (⟨2, ![1, 8192]⟩ : Shape).Idx → EReal := V m c main_v4
abbrev Wu (c : Dev nD) : (⟨2, ![2048, 8192]⟩ : Shape).Idx → EReal := V m c main_v2
abbrev Bu (c : Dev nD) : (⟨2, ![1, 8192]⟩ : Shape).Idx → EReal := V m c main_v5
abbrev Wd (c : Dev nD) : (⟨2, ![8192, 2048]⟩ : Shape).Idx → EReal := V m c main_v3
abbrev Bd (c : Dev nD) : (⟨2, ![1, 2048]⟩ : Shape).Idx → EReal := V m c main_v6

/-- The step at point t, on row tile a = t / 8 and hidden tile j = t % 8, adds tile j's share onto the scratch. -/
theorem step_at (c : Dev nD) (t : Fin cfg0.N) (a j : Fin 8) (ha : a.val = t.val / 8) (hj : j.val = t.val % 8)
    (acc : Vec Ideal S1024x2048 .f32) (r : Fin 1024) (col : Fin 2048) :
    k0_pay3 (F := Ideal) (iblk m c 0 t) (iblk m c 1 t) (iblk m c 2 t) (iblk m c 3 t) (iblk m c 4 t) acc (iblk m c 5 t) (ix2 r col)
      = acc (ix2 r col) + share (X m c) (Wg m c) (Bg m c) (Wu m c) (Bu m c) (Wd m c) (tile a r) col j :=
  (Step.step_apply (iblk m c 0 t) (iblk m c 1 t) (iblk m c 2 t) (iblk m c 3 t) (iblk m c 4 t) acc (iblk m c 5 t) r col).trans
    (congrArg (acc (ix2 r col) + ·)
      (down_block (X m c) (Wg m c) (Bg m c) (Wu m c) (Bu m c) (Wd m c)
        (iblk m c 0 t) (iblk m c 1 t) (iblk m c 2 t) (iblk m c 3 t) (iblk m c 4 t) (iblk m c 5 t) a j
        (fun r k => Blocks.read_x m c t r k (tile a r) (by rw [tile_val, ha]))
        (fun k i => Blocks.read_wg m c t k i (tile j i) (by rw [tile_val, hj]))
        (fun i => Blocks.read_bg m c t 0 i (tile j i) (by rw [tile_val, hj]))
        (fun k i => Blocks.read_wu m c t k i (tile j i) (by rw [tile_val, hj]))
        (fun i => Blocks.read_bu m c t 0 i (tile j i) (by rw [tile_val, hj]))
        (fun i col => Blocks.read_wd m c t i col (tile j i) (by rw [tile_val, hj])) r col))

/-- THE INVARIANT. After point n, on row tile a = n / 8 and hidden tile j = n % 8, the scratch entry (r, col) is the
    running total of row 1024·a + r at column col over the hidden tiles 0, …, j. -/
theorem scratch_eq (c : Dev nD) : ∀ (n : ℕ) (h : n < cfg0.N) (a j : Fin 8), a.val = n / 8 → j.val = n % 8 →
    ∀ (r : Fin 1024) (col : Fin 2048),
      (outsAt0 m c n h).2 (ix2 r col) = running (X m c) (Wg m c) (Bg m c) (Wu m c) (Bu m c) (Wd m c) (tile a r) col j.val
  | 0, h, a, j, ha, hj, r, col => by
    rw [show outsAt0 m c 0 h = _ from first_at m c ⟨0, h⟩ rfl]
    show k0_pay3 (F := Ideal) (iblk m c 0 ⟨0, h⟩) (iblk m c 1 ⟨0, h⟩) (iblk m c 2 ⟨0, h⟩) (iblk m c 3 ⟨0, h⟩) (iblk m c 4 ⟨0, h⟩) (k0_pay2 (F := Ideal)) (iblk m c 5 ⟨0, h⟩) (ix2 r col) = _
    rw [step_at m c ⟨0, h⟩ a j ha hj, Step.zero_apply, zero_add]
    have hj0 : j.val = 0 := hj
    unfold running
    rw [hj0, PrefixSums.upto_zero _ (by omega)]
    exact congrArg _ (Fin.ext hj0)
  | n + 1, h, a, j, ha, hj, r, col => by
    have hN : cfg0.N = 64 := N_0
    by_cases h0 : (n + 1) % 8 = 0
    · rw [show outsAt0 m c (n + 1) h = _ from first_at m c ⟨n + 1, h⟩ h0]
      show k0_pay3 (F := Ideal) (iblk m c 0 ⟨n + 1, h⟩) (iblk m c 1 ⟨n + 1, h⟩) (iblk m c 2 ⟨n + 1, h⟩) (iblk m c 3 ⟨n + 1, h⟩) (iblk m c 4 ⟨n + 1, h⟩) (k0_pay2 (F := Ideal)) (iblk m c 5 ⟨n + 1, h⟩) (ix2 r col) = _
      rw [step_at m c ⟨n + 1, h⟩ a j ha hj, Step.zero_apply, zero_add]
      have hj0 : j.val = 0 := by rw [hj]; exact h0
      unfold running
      rw [hj0, PrefixSums.upto_zero _ (by omega)]
      exact congrArg _ (Fin.ext hj0)
    · rw [show outsAt0 m c (n + 1) h = _ from later_at m c ⟨n + 1, h⟩ h0]
      show k0_pay3 (F := Ideal) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2 (iblk m c 5 ⟨n + 1, h⟩) (ix2 r col) = _
      rw [step_at m c ⟨n + 1, h⟩ a j ha hj,
        scratch_eq c n (Nat.lt_of_succ_lt h) a ⟨n % 8, Nat.mod_lt _ (by omega)⟩ (by rw [ha]; show (n + 1) / 8 = n / 8; omega) rfl r col]
      have hj1 : j.val = n % 8 + 1 := by rw [hj]; show (n + 1) % 8 = n % 8 + 1; omega
      unfold running
      rw [hj1, PrefixSums.upto_succ _ (n % 8) (by omega)]
      exact congrArg _ (congrArg _ (Fin.ext hj1))

/-- After the last point of a row tile the output block holds the whole result for its rows: the down projection over
    all 8192 hidden units plus the output bias. -/
theorem emitted_eq (c : Dev nD) (t : Fin cfg0.N) (h7 : t.val % 8 = 7) (a : Fin 8) (ha : a.val = t.val / 8)
    (r : Fin 1024) (col : Fin 2048) :
    (outsAt0 m c t.val t.isLt).1 (ix2 r col) = result (X m c) (Wg m c) (Bg m c) (Wu m c) (Bu m c) (Wd m c) (Bd m c) (ix2 (tile a r) col) := by
  refine (congrFun (block_at m c t) (ix2 r col)).trans ?_
  refine (Step.emit_apply (outsAt0 m c t.val t.isLt).2 (iblk m c 6 t) r col).trans ?_
  rw [scratch_eq m c t.val t.isLt a ⟨7, by omega⟩ ha h7.symm r col, running_last, Blocks.read_bd m c t 0 col]
  rfl

end ExtendedReals

end Cert.KernelIdeal.Sweep

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.Direct.lean ====
/-
  The result written directly over the seven arguments as they are given, and the tiled form read through the
  reshapes in front of the kernel.

  The arguments are the input x of shape [4, 2048, 2048] (batch, position, feature), the weights, and the biases as
  vectors. At (b, s, c):
      out = Σ_I  g_I · max(g_I, 0) · u_I · Wd(I, c)  +  bd(c),
      g_I = Σ_k x(b, s, k) · Wg(k, I) + bg(I),     u_I = Σ_k x(b, s, k) · Wu(k, I) + bu(I).
  In front of the kernel the input is flattened to [8192, 2048] — row 2048·b + s is (b, s) — and each bias vector
  becomes a one-row array; a reshape keeps every element's row-major position. So the tiled form over the flattened
  arrays, read at row 2048·b + s, is this function at (b, s).
-/
import proofs.«178349_j19653770346748_2_alg».proof.Proof.Spec
import proofs.«178349_j19653770346748_2_alg».proof.Proof.LibFlattenBroadcast
import Idealize.ShloMosaic.Lib.ValueLayout

noncomputable section

namespace Cert.GatedMlp

open Idealize.ShloMosaic Idealize.ShloMosaic.ValueIdx

/-- The result at (b, s, c), over the arguments as given. -/
def direct (x : (⟨3, ![4, 2048, 2048]⟩ : Shape).Idx → EReal) (wg : (⟨2, ![2048, 8192]⟩ : Shape).Idx → EReal)
    (bg : (⟨1, ![8192]⟩ : Shape).Idx → EReal) (wu : (⟨2, ![2048, 8192]⟩ : Shape).Idx → EReal)
    (bu : (⟨1, ![8192]⟩ : Shape).Idx → EReal) (wd : (⟨2, ![8192, 2048]⟩ : Shape).Idx → EReal)
    (bd : (⟨1, ![2048]⟩ : Shape).Idx → EReal) (b : Fin 4) (s : Fin 2048) (c : Fin 2048) : EReal :=
  (∑ I : Fin 8192,
      ((((∑ k : Fin 2048, x (ix3 b s k) * wg (ix2 k I)) + bg (ix1 I))
          * max ((∑ k : Fin 2048, x (ix3 b s k) * wg (ix2 k I)) + bg (ix1 I)) (Ideal.ofBits .f32 0x00000000#32))
        * ((∑ k : Fin 2048, x (ix3 b s k) * wu (ix2 k I)) + bu (ix1 I)))
      * wd (ix2 I c))
    + bd (ix1 c)

/-- The tiled form over the flattened input and the one-row biases, at row 2048·b + s, is the direct form at (b, s). -/
theorem result_flattened (x : (⟨3, ![4, 2048, 2048]⟩ : Shape).Idx → EReal) (wg : (⟨2, ![2048, 8192]⟩ : Shape).Idx → EReal)
    (bg : (⟨1, ![8192]⟩ : Shape).Idx → EReal) (wu : (⟨2, ![2048, 8192]⟩ : Shape).Idx → EReal)
    (bu : (⟨1, ![8192]⟩ : Shape).Idx → EReal) (wd : (⟨2, ![8192, 2048]⟩ : Shape).Idx → EReal)
    (bd : (⟨1, ![2048]⟩ : Shape).Idx → EReal)
    (hx : (⟨3, ![4, 2048, 2048]⟩ : Shape).ShapeCasts ⟨2, ![8192, 2048]⟩)
    (hb : (⟨1, ![8192]⟩ : Shape).ShapeCasts ⟨2, ![1, 8192]⟩) (hd : (⟨1, ![2048]⟩ : Shape).ShapeCasts ⟨2, ![1, 2048]⟩)
    (b : Fin 4) (s : Fin 2048) (c : Fin 2048) (R : Fin 8192) (hR : R.val = b.val * 2048 + s.val) :
    result (shapeCast ⟨2, ![8192, 2048]⟩ x hx) wg (shapeCast ⟨2, ![1, 8192]⟩ bg hb) wu (shapeCast ⟨2, ![1, 8192]⟩ bu hb) wd
        (shapeCast ⟨2, ![1, 2048]⟩ bd hd) (ix2 R c)
      = direct x wg bg wu bu wd bd b s c := by
  unfold result down hidden direct
  show (∑ I : Fin 8192, _) + shapeCast ⟨2, ![1, 2048]⟩ bd hd (ix2 (0 : Fin 1) c) = _
  rw [shapeCast_a_1a_apply]
  refine congrArg (· + bd (ix1 c)) (Finset.sum_congr rfl fun I _ => ?_)
  show (((∑ k : Fin 2048, shapeCast ⟨2, ![8192, 2048]⟩ x hx (ix2 R k) * wg (ix2 k I)) + shapeCast ⟨2, ![1, 8192]⟩ bg hb (ix2 (0 : Fin 1) I))
        * max ((∑ k : Fin 2048, shapeCast ⟨2, ![8192, 2048]⟩ x hx (ix2 R k) * wg (ix2 k I)) + shapeCast ⟨2, ![1, 8192]⟩ bg hb (ix2 (0 : Fin 1) I)) (Ideal.ofBits .f32 0x00000000#32))
      * ((∑ k : Fin 2048, shapeCast ⟨2, ![8192, 2048]⟩ x hx (ix2 R k) * wu (ix2 k I)) + shapeCast ⟨2, ![1, 8192]⟩ bu hb (ix2 (0 : Fin 1) I))
      * wd (ix2 I c) = _
  rw [shapeCast_a_1a_apply, shapeCast_a_1a_apply]
  simp only [Cert.LibFlattenBroadcast.shapeCast_abc_nc_apply x hx b s _ R hR]

end Cert.GatedMlp

end
-- ==== Proof.Whole.lean ====
/-
  From blocks to the whole array, through the reshape after the kernel, to the run.

  The output is written back once per row tile, after the tile's last hidden tile; what is written is the whole
  result for rows 1024·(t / 8) … 1024·(t / 8) + 1023. Every row of the [8192, 2048] output lies in exactly one such
  block — row R in the block written at point 8·(R / 1024) + 7 — so after the run the array holds the tiled result
  everywhere. The program's result is that array reshaped to [4, 2048, 2048], and the seven arguments end unchanged.
-/
import proofs.«178349_j19653770346748_2_alg».proof.Proof.Sweep
import proofs.«178349_j19653770346748_2_alg».proof.Proof.Direct
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.GatedMlp Cert.KernelIdeal.Sweep

variable (m : (ℓ : Loc nD τ sig) → Buf (Elt Ideal) ℓ) (ρ : Dev nD → PrngReg)

/-- The whole [8192, 2048] output: the tiled result of the arrays the kernel is handed. -/
abbrev out2d (c : Dev nD) : Buf (Elt Ideal) ((c : Thread nD τ).loc main_v7) :=
  result (X m c) (Wg m c) (Bg m c) (Wu m c) (Bu m c) (Wd m c) (Bd m c)

/-- What a write-back point writes is its block of the whole output. -/
theorem flushed_eq (c : Dev nD) (t : Fin cfg0.N) (hf : (cfg0.win 7).flush t = true) :
    (dats m 0 c).flushed 7 t = ((cfg0.win 7).blk t).view.read (Elt Ideal) (out2d m c) := by
  have h7 : t.val % 8 = 7 := (flush0_7 t).mp hf
  have hN : cfg0.N = 64 := N_0
  show (cfg0.win 7).cut (grid0.coords t) ((dats m 0 c).after 7 t) = _
  rw [after0_7]
  funext y
  obtain ⟨r, col, rfl⟩ : ∃ (r : Fin 1024) (col : Fin 2048), y = ix2 r col := ⟨y 0, y 1, eq_ix2 y⟩
  show (outsAt0 m c t.val t.isLt).1 (ix2 r col) = out2d m c (((cfg0.win 7).blk t).view.emb (ix2 r col))
  rw [emitted_eq m c t h7 ⟨t.val / 8, by omega⟩ rfl r col]
  show result _ _ _ _ _ _ _ _ = result _ _ _ _ _ _ _ _
  congr 1
  funext ax
  apply Fin.ext
  match ax with
  | ⟨0, _⟩ => show t.val / 8 * 1024 + r.val = win0_7.index t 0 * 1024 + 1 * r.val; rw [(Blocks.idx_out t).1]; omega
  | ⟨1, _⟩ => show col.val = win0_7.index t 1 * 2048 + 1 * col.val; rw [(Blocks.idx_out t).2]; omega

/-- An entry of the output is in point t's block iff each coordinate is in the block's range on its axis. -/
theorem mem_blk (t : Fin cfg0.N) (i : S8192x2048.Idx) :
    i ∈ ((cfg0.win 7).blk t).view.set ↔ ∀ a : Fin 2, win0_7.index t a * S1024x2048.size a ≤ (i a).val
      ∧ (i a).val < win0_7.index t a * S1024x2048.size a + S1024x2048.size a := by
  show i ∈ ((View.whole main_v7).slice (win0_7.rect t)).set ↔ _
  rw [View.set_slice_whole, Rect.mem_set_unit]
  exact Iff.rfl

/-- Every entry of the output is written back: row R by the last point of row tile R / 1024. -/
theorem covered (i : S8192x2048.Idx) :
    ∃ t : Fin cfg0.N, (cfg0.win 7).flush t = true ∧ i ∈ ((cfg0.win 7).blk t).view.set := by
  have hN : cfg0.N = 64 := N_0
  have hi0 : (i 0).val < 8192 := (i 0).isLt
  have hi1 : (i 1).val < 2048 := (i 1).isLt
  have hlt : 8 * ((i 0).val / 1024) + 7 < cfg0.N := by omega
  refine ⟨⟨8 * ((i 0).val / 1024) + 7, hlt⟩, (flush0_7 _).mpr (by show (8 * ((i 0).val / 1024) + 7) % 8 = 7; omega), ?_⟩
  rw [mem_blk]
  obtain ⟨e0, e1⟩ := Blocks.idx_out ⟨8 * ((i 0).val / 1024) + 7, hlt⟩
  intro a
  match a with
  | ⟨0, _⟩ =>
    show win0_7.index ⟨8 * ((i 0).val / 1024) + 7, hlt⟩ 0 * 1024 ≤ (i 0).val
      ∧ (i 0).val < win0_7.index ⟨8 * ((i 0).val / 1024) + 7, hlt⟩ 0 * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_7.index ⟨8 * ((i 0).val / 1024) + 7, hlt⟩ 1 * 2048 ≤ (i 1).val
      ∧ (i 1).val < win0_7.index ⟨8 * ((i 0).val / 1024) + 7, hlt⟩ 1 * 2048 + 2048
    rw [e1]
    omega

/-- After the run the output array holds the tiled result. -/
theorem final (c : Dev nD) : (dats m 0 c).arrAt 7 cfg0.N = out2d m c :=
  (dats m 0 c).arrAt_eq_of_cover 7 (out2d m c) (flushed_eq m c) covered

/-- The program's result: the output array reshaped to [4, 2048, 2048]. -/
abbrev out3d (c : Dev nD) : Buf (Elt Ideal) ((c : Thread nD τ).loc main_v8) :=
  shapeCast S4x2048x2048 (out2d m c) shapeCasts_S8192x2048_S4x2048x2048

/-- The reshape after the kernel reads the output array the region left. -/
theorem tail_eq (c : Dev nD) :
    Pipeline.afterTail₀ cfgs (dats m) 0 (V0 m) [hostOps1] c main_v8 = out3d m c := by
  unfold Pipeline.afterTail₀
  show StableHlo.after hostOps1 _ (Proc.devRef .tc main_v8) = _
  after_results
  have e := (Pipeline.withArrays_arr spec0 launch0.win.arr_inj c (V0 m c) (fun w => (dats m 0 c).arrAt w cfg0.N) 7).trans (final m c)
  funext i
  show shapeCast S4x2048x2048 (Pipeline.withArrays spec0 c (V0 m c) (fun w => (dats m 0 c).arrAt w cfg0.N)
    (Proc.devRef .tc (Pipeline.arrRef spec0 7))) shapeCasts_S8192x2048_S4x2048x2048 i = _
  rw [e]

/-- The arrays the region finds are the host operations before it applied to the arguments: the input flattened,
    the three weights with their format changed (the identity on the extended reals), the three biases as rows. -/
theorem X_eq (c : Dev nD) :
    X m c = shapeCast S8192x2048 (m ((c.tc : Thread nD τ).loc main_arg0)) shapeCasts_S4x2048x2048_S8192x2048 := by
  show StableHlo.after hostOps0 (fun b => m (c, b)) (Proc.devRef .tc main_v0) = _
  after_results
  rfl
theorem Wg_eq (c : Dev nD) : Wg m c = m ((c.tc : Thread nD τ).loc main_arg1) := by
  show StableHlo.after hostOps0 (fun b => m (c, b)) (Proc.devRef .tc main_v1) = _
  after_results
  rfl
theorem Wu_eq (c : Dev nD) : Wu m c = m ((c.tc : Thread nD τ).loc main_arg3) := by
  show StableHlo.after hostOps0 (fun b => m (c, b)) (Proc.devRef .tc main_v2) = _
  after_results
  rfl
theorem Wd_eq (c : Dev nD) : Wd m c = m ((c.tc : Thread nD τ).loc main_arg5) := by
  show StableHlo.after hostOps0 (fun b => m (c, b)) (Proc.devRef .tc main_v3) = _
  after_results
  rfl
theorem Bg_eq (c : Dev nD) :
    Bg m c = shapeCast S1x8192 (m ((c.tc : Thread nD τ).loc main_arg2)) shapeCasts_S8192_S1x8192 := by
  show StableHlo.after hostOps0 (fun b => m (c, b)) (Proc.devRef .tc main_v4) = _
  after_results
  rfl
theorem Bu_eq (c : Dev nD) :
    Bu m c = shapeCast S1x8192 (m ((c.tc : Thread nD τ).loc main_arg4)) shapeCasts_S8192_S1x8192 := by
  show StableHlo.after hostOps0 (fun b => m (c, b)) (Proc.devRef .tc main_v5) = _
  after_results
  rfl
theorem Bd_eq (c : Dev nD) :
    Bd m c = shapeCast S1x2048 (m ((c.tc : Thread nD τ).loc main_arg6)) shapeCasts_S2048_S1x2048 := by
  show StableHlo.after hostOps0 (fun b => m (c, b)) (Proc.devRef .tc main_v6) = _
  after_results
  rfl

/-- The program's result at (b, s, col) is the direct form of its seven arguments. -/
theorem out3d_apply (c : Dev nD) (b : Fin 4) (s : Fin 2048) (col : Fin 2048) :
    out3d m c (ix3 b s col)
      = direct (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) b s col := by
  have hR : (⟨b.val * 2048 + s.val, by have := b.isLt; have := s.isLt; omega⟩ : Fin 8192).val = b.val * 2048 + s.val := rfl
  refine (Cert.LibFlattenBroadcast.shapeCast_nc_abc_apply (out2d m c) shapeCasts_S8192x2048_S4x2048x2048 b s col _ hR).trans ?_
  show result (X m c) (Wg m c) (Bg m c) (Wu m c) (Bu m c) (Wd m c) (Bd m c) _ = _
  rw [X_eq, Wg_eq, Bg_eq, Wu_eq, Bu_eq, Wd_eq, Bd_eq]
  exact result_flattened _ _ _ _ _ _ _ _ _ _ b s col _ hR

/-- THE RUN, READ: every weakly fair execution of the program terminates with its result at `out3d` and its seven
    arguments unchanged. -/
theorem run : θ_run defs (onTc (τ := τ) (main (F := Ideal))) ⟨m, fun _ => 0, ρ⟩ fun r => ∀ c : Dev nD,
      r.2.mem ((c.tc : Thread nD τ).loc main_v8) = out3d m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Whole

end
-- ==== Proof.ReferenceValue.lean ====
/-
  The reference computes the direct form.

  Its seventeen host operations are two matrix products of the input against the gate and up weights (each a sum over
  the 2048 features), the biases broadcast along batch and position and added, the activation  g · max(g, 0), the
  product with the up value, the matrix product against the down weight (a sum over the 8192 hidden units), and the
  output bias broadcast and added. Read at (b, s, c), operation by operation, that is the direct form: every layout
  operation reads its operand at the evident coordinates.
-/
import proofs.«178349_j19653770346748_2_alg».proof.Proof.Gen.ReferenceIdeal.Read
import proofs.«178349_j19653770346748_2_alg».proof.Proof.Direct

noncomputable section

namespace Cert.ReferenceIdeal.AsDirect

open Cert.ReferenceIdeal Cert.ReferenceIdeal.Read Idealize.ShloMosaic Idealize.ShloMosaic.ValueIdx Cert.GatedMlp

/-- Where each operation reads its operands, in coordinates. -/
theorem gate_lhs (b : Fin 4) (s : Fin 2048) (I : Fin 8192) (k : Fin 2048) : lidx_main_v0 (ix3 b s I) k = ix3 b s k :=
  funext fun a => Fin.ext (by match a with | ⟨0, _⟩ => rfl | ⟨1, _⟩ => rfl | ⟨2, _⟩ => rfl)
theorem gate_rhs (b : Fin 4) (s : Fin 2048) (I : Fin 8192) (k : Fin 2048) : ridx_main_v0 (ix3 b s I) k = ix2 k I :=
  funext fun a => Fin.ext (by match a with | ⟨0, _⟩ => rfl | ⟨1, _⟩ => rfl)
theorem up_lhs (b : Fin 4) (s : Fin 2048) (I : Fin 8192) (k : Fin 2048) : lidx_main_v6 (ix3 b s I) k = ix3 b s k :=
  funext fun a => Fin.ext (by match a with | ⟨0, _⟩ => rfl | ⟨1, _⟩ => rfl | ⟨2, _⟩ => rfl)
theorem up_rhs (b : Fin 4) (s : Fin 2048) (I : Fin 8192) (k : Fin 2048) : ridx_main_v6 (ix3 b s I) k = ix2 k I :=
  funext fun a => Fin.ext (by match a with | ⟨0, _⟩ => rfl | ⟨1, _⟩ => rfl)
theorem gate_bias (b : Fin 4) (s : Fin 2048) (I : Fin 8192) : idx_main_v1 (idx_main_v2 (ix3 b s I)) = ix1 I :=
  funext fun a => Fin.ext (by match a with | ⟨0, _⟩ => rfl)
theorem up_bias (b : Fin 4) (s : Fin 2048) (I : Fin 8192) : idx_main_v7 (idx_main_v8 (ix3 b s I)) = ix1 I :=
  funext fun a => Fin.ext (by match a with | ⟨0, _⟩ => rfl)
theorem down_lhs (b : Fin 4) (s : Fin 2048) (c : Fin 2048) (I : Fin 8192) : lidx_main_v11 (ix3 b s c) I = ix3 b s I :=
  funext fun a => Fin.ext (by match a with | ⟨0, _⟩ => rfl | ⟨1, _⟩ => rfl | ⟨2, _⟩ => rfl)
theorem down_rhs (b : Fin 4) (s : Fin 2048) (c : Fin 2048) (I : Fin 8192) : ridx_main_v11 (ix3 b s c) I = ix2 I c :=
  funext fun a => Fin.ext (by match a with | ⟨0, _⟩ => rfl | ⟨1, _⟩ => rfl)
theorem out_bias (b : Fin 4) (s : Fin 2048) (c : Fin 2048) : idx_main_v12 (idx_main_v13 (ix3 b s c)) = ix1 c :=
  funext fun a => Fin.ext (by match a with | ⟨0, _⟩ => rfl)

/-- The reference's result at (b, s, c) is the direct form of its arguments. -/
theorem result_apply (x0 : (⟨S4x2048x2048, .f32⟩ : BufTy).Contents (Elt Ideal)) (x1 : (⟨S2048x8192, .f32⟩ : BufTy).Contents (Elt Ideal))
    (x2 : (⟨S8192, .f32⟩ : BufTy).Contents (Elt Ideal)) (x3 : (⟨S2048x8192, .f32⟩ : BufTy).Contents (Elt Ideal))
    (x4 : (⟨S8192, .f32⟩ : BufTy).Contents (Elt Ideal)) (x5 : (⟨S8192x2048, .f32⟩ : BufTy).Contents (Elt Ideal))
    (x6 : (⟨S2048, .f32⟩ : BufTy).Contents (Elt Ideal)) (b : Fin 4) (s : Fin 2048) (c : Fin 2048) :
    val_main_v14 (F := Ideal) x0 x1 x2 x3 x4 x5 x6 (ix3 b s c) = direct x0 x1 x2 x3 x4 x5 x6 b s c := by
  rw [val_main_v14_apply, val_main_v13_apply, val_main_v12_apply, val_main_v11_apply, out_bias]
  unfold direct
  refine congrArg (· + x6 (ix1 c)) (Finset.sum_congr rfl fun I _ => ?_)
  rw [down_lhs, down_rhs, val_main_v10_apply, val_main_v5_apply, val_main_v9_apply, val_main_v4_apply, val_main_v3_apply,
    val_main_v0_apply, val_main_v2_apply, val_main_v1_apply, val_main_v6_apply, val_main_v8_apply, val_main_v7_apply,
    val_main_call0_v0_apply, val_main_call0_cst_apply, gate_bias, up_bias]
  simp only [gate_lhs, gate_rhs, up_lhs, up_rhs]
  rfl

end Cert.ReferenceIdeal.AsDirect

end
-- ==== Proof.lean ====
/-
  A gated two-layer perceptron: a tiled kernel against its whole-matrix reference, on the extended reals.

  Both programs map an input x of shape [4, 2048, 2048] and weights Wg, Wu : [2048, 8192], Wd : [8192, 2048] with
  biases bg, bu, bd to
      out(b, s, c) = Σ_I  g_I · max(g_I, 0) · u_I · Wd(I, c) + bd(c),
      g_I = Σ_k x(b, s, k) · Wg(k, I) + bg(I),   u_I = Σ_k x(b, s, k) · Wu(k, I) + bu(I).
  The reference evaluates this with three whole matrix products. The kernel flattens the input to 8192 rows, walks an
  8 × 8 grid of (row tile, hidden tile) pairs, and for each row tile accumulates the 8 hidden tiles' shares of the sum
  over I in a scratch buffer that it zeroes at the tile's first step, writing scratch + bd to the output block; the
  block is written back after the tile's last step, and the output is reshaped to [4, 2048, 2048]. With exact
  arithmetic a change of float format is the identity, and splitting the sum over the 8192 hidden units into 8
  consecutive runs of 1024 is a regrouping of a finite sum, so the two results agree entry by entry. Only
  commutativity and associativity of addition are used: no input needs to be finite for the two results to agree.

  The pieces: what one step leaves (CaseValues, StepValue), which entries of the arrays a block holds (Blocks), the
  running total after each point and the block written back (Sweep), the whole array, the final reshape and the run
  (Whole), the reference's stages as the same function of the arguments (ReferenceValue, Direct), over the
  statement of the function (Spec).
-/
import proofs.«178349_j19653770346748_2_alg».proof.Defs
import proofs.«178349_j19653770346748_2_alg».proof.Proof.Gen.Kernel
import proofs.«178349_j19653770346748_2_alg».proof.Proof.Gen.Kernel.Skeleton
import proofs.«178349_j19653770346748_2_alg».proof.Proof.Gen.Kernel.Launch
import proofs.«178349_j19653770346748_2_alg».proof.Proof.Gen.Kernel.Points
import proofs.«178349_j19653770346748_2_alg».proof.Proof.Gen.Kernel.Frame
import proofs.«178349_j19653770346748_2_alg».proof.Proof.Gen.KernelIdeal
import proofs.«178349_j19653770346748_2_alg».proof.Proof.Gen.KernelIdeal.Skeleton
import proofs.«178349_j19653770346748_2_alg».proof.Proof.Gen.KernelIdeal.Launch
import proofs.«178349_j19653770346748_2_alg».proof.Proof.Gen.KernelIdeal.Points
import proofs.«178349_j19653770346748_2_alg».proof.Proof.Gen.KernelIdeal.Frame
import proofs.«178349_j19653770346748_2_alg».proof.Proof.Gen.ReferenceIdeal
import proofs.«178349_j19653770346748_2_alg».proof.Proof.Gen.Pre_finite_inputs
import proofs.«178349_j19653770346748_2_alg».proof.Proof.Gen.ReferenceIdeal.Run
import proofs.«178349_j19653770346748_2_alg».proof.Proof.Gen.ReferenceIdeal.Read
import proofs.«178349_j19653770346748_2_alg».proof.Proof.Whole
import proofs.«178349_j19653770346748_2_alg».proof.Proof.ReferenceValue
import Idealize.ShloMosaic.Adequacy
import Idealize.ShloMosaic.Init

noncomputable section

namespace Cert.Proof

open Idealize.ShloMosaic Idealize.SL.Sem Idealize.ShloMosaic.ValueIdx

/-- The kernel as printed runs, faults nowhere and leaves its arguments unchanged. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- From memories that agree on the seven arguments both programs end with the same result: at (b, s, c) each is the
    direct form of the arguments. -/
theorem algebraic : Cert.algebraic_KernelIdeal_ReferenceIdeal := by
  intro m ρ m' ρ' _ hagree
  refine ⟨fun c => Cert.KernelIdeal.Whole.out3d m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq]
  funext i
  obtain ⟨b, s, col, rfl⟩ : ∃ (b : Fin 4) (s : Fin 2048) (col : Fin 2048), i = ix3 b s col := ⟨i 0, i 1, i 2, eq_ix3 i⟩
  rw [Cert.ReferenceIdeal.AsDirect.result_apply]
  refine Eq.trans ?_ (Cert.KernelIdeal.Whole.out3d_apply m c b s col).symm
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
